-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x2048x128 : Shape := ⟨4, ![8, 16, 2048, 128]⟩
abbrev S8x16x128x128 : Shape := ⟨4, ![8, 16, 128, 128]⟩
abbrev S8x16x128x2048 : Shape := ⟨4, ![8, 16, 128, 2048]⟩
abbrev S_ : Shape := ⟨0, ![]⟩

class Facts : Prop where
  bcast_S_S8x16x2048x128 : S_.BroadcastsInDim S8x16x2048x128 (![] : Fin 0 → Fin S8x16x2048x128.rank)
  reducesTo_S8x16x2048x128_S_d0_1_2_3 : S8x16x2048x128.ReducesTo [0, 1, 2, 3] S_
  h_S_ : 0 < S_.numel
  bcast_S_S8x16x128x128 : S_.BroadcastsInDim S8x16x128x128 (![] : Fin 0 → Fin S8x16x128x128.rank)
  reducesTo_S8x16x128x128_S_d0_1_2_3 : S8x16x128x128.ReducesTo [0, 1, 2, 3] S_
  bcast_S_S8x16x128x2048 : S_.BroadcastsInDim S8x16x128x2048 (![] : Fin 0 → Fin S8x16x128x2048.rank)
  reducesTo_S8x16x128x2048_S_d0_1_2_3 : S8x16x128x2048.ReducesTo [0, 1, 2, 3] S_

variable [Facts]

def fn_part1 {F : FTy → Type} [FloatOps F] (main_v13 : IVec S_ 1) (main_v16 : IVec S8x16x2048x128 1) : IVec S_ 1 :=
  let main_c_5 : IVec S_ 1 := constantI S_ 1 1#1
  let main_v17 : IVec S_ 1 := (fun x v => Host.reduce IntOp.andi x v reducesTo_S8x16x2048x128_S_d0_1_2_3 h_S_) main_v16 main_c_5
  let main_v18 : IVec S_ 1 := andi main_v13 main_v17
  main_v18

def fn {F : FTy → Type} [FloatOps F] (main_arg0 : FVec F S8x16x2048x128 .f32) (main_arg1 : FVec F S8x16x128x128 .f32) (main_arg2 : FVec F S8x16x128x2048 .f32) (main_arg3 : FVec F S8x16x2048x128 .f32) : IVec S_ 1 :=
  let main_v0 : FVec F S8x16x2048x128 .f32 := Host.absf main_arg0
  let main_cst : FVec F S_ .f32 := constant S_ .f32 0x7F800000#32
  let main_v1 : FVec F S8x16x2048x128 .f32 := broadcastInDim S8x16x2048x128 ![] bcast_S_S8x16x2048x128 main_cst
  let main_v2 : IVec S8x16x2048x128 1 := cmpf .olt main_v0 main_v1
  let main_c : IVec S_ 1 := constantI S_ 1 1#1
  let main_v3 : IVec S_ 1 := (fun x v => Host.reduce IntOp.andi x v reducesTo_S8x16x2048x128_S_d0_1_2_3 h_S_) main_v2 main_c
  let main_v4 : FVec F S8x16x128x128 .f32 := Host.absf main_arg1
  let main_cst_0 : FVec F S_ .f32 := constant S_ .f32 0x7F800000#32
  let main_v5 : FVec F S8x16x128x128 .f32 := broadcastInDim S8x16x128x128 ![] bcast_S_S8x16x128x128 main_cst_0
  let main_v6 : IVec S8x16x128x128 1 := cmpf .olt main_v4 main_v5
  let main_c_1 : IVec S_ 1 := constantI S_ 1 1#1
  let main_v7 : IVec S_ 1 := (fun x v => Host.reduce IntOp.andi x v reducesTo_S8x16x128x128_S_d0_1_2_3 h_S_) main_v6 main_c_1
  let main_v8 : IVec S_ 1 := andi main_v3 main_v7
  let main_v9 : FVec F S8x16x128x2048 .f32 := Host.absf main_arg2
  let main_cst_2 : FVec F S_ .f32 := constant S_ .f32 0x7F800000#32
  let main_v10 : FVec F S8x16x128x2048 .f32 := broadcastInDim S8x16x128x2048 ![] bcast_S_S8x16x128x2048 main_cst_2
  let main_v11 : IVec S8x16x128x2048 1 := cmpf .olt main_v9 main_v10
  let main_c_3 : IVec S_ 1 := constantI S_ 1 1#1
  let main_v12 : IVec S_ 1 := (fun x v => Host.reduce IntOp.andi x v reducesTo_S8x16x128x2048_S_d0_1_2_3 h_S_) main_v11 main_c_3
  let main_v13 : IVec S_ 1 := andi main_v8 main_v12
  let main_v14 : FVec F S8x16x2048x128 .f32 := Host.absf main_arg3
  let main_cst_4 : FVec F S_ .f32 := constant S_ .f32 0x7F800000#32
  let main_v15 : FVec F S8x16x2048x128 .f32 := broadcastInDim S8x16x2048x128 ![] bcast_S_S8x16x2048x128 main_cst_4
  let main_v16 : IVec S8x16x2048x128 1 := cmpf .olt main_v14 main_v15
  fn_part1 (F := F) main_v13 main_v16
-- ==== Kernel.lean ====
abbrev S8x16x2048x128 : Shape := ⟨4, ![8, 16, 2048, 128]⟩
abbrev S8x16x128x128 : Shape := ⟨4, ![8, 16, 128, 128]⟩
abbrev S8x16x128x2048 : Shape := ⟨4, ![8, 16, 128, 2048]⟩
abbrev S1x1x2048x128 : Shape := ⟨4, ![1, 1, 2048, 128]⟩
abbrev S1x1x128x128 : Shape := ⟨4, ![1, 1, 128, 128]⟩
abbrev S1x1x128x2048 : Shape := ⟨4, ![1, 1, 128, 2048]⟩
abbrev S2048x128 : Shape := ⟨2, ![2048, 128]⟩
abbrev S128x128 : Shape := ⟨2, ![128, 128]⟩
abbrev S128x2048 : Shape := ⟨2, ![128, 2048]⟩
abbrev S2048 : Shape := ⟨1, ![2048]⟩
abbrev S2048x1 : Shape := ⟨2, ![2048, 1]⟩
abbrev S128 : Shape := ⟨1, ![128]⟩
abbrev S128x1 : Shape := ⟨2, ![128, 1]⟩

abbrev nBuf : Space → Nat
  | .hbm => 5
  | .vmem => 10
  | .smem => 0
  | _ => 0

abbrev bufTy : (tb : Table) → Fin (tcTables nBuf tb) → BufTy
  | .hbm, ⟨0, _⟩ => ⟨S8x16x2048x128, .f32⟩
  | .hbm, ⟨1, _⟩ => ⟨S8x16x128x128, .f32⟩
  | .hbm, ⟨2, _⟩ => ⟨S8x16x128x2048, .f32⟩
  | .hbm, ⟨3, _⟩ => ⟨S8x16x2048x128, .f32⟩
  | .hbm, ⟨4, _⟩ => ⟨S8x16x2048x128, .f32⟩
  | .local _ .vmem, ⟨0, _⟩ => ⟨S1x1x2048x128, .f32⟩
  | .local _ .vmem, ⟨1, _⟩ => ⟨S1x1x2048x128, .f32⟩
  | .local _ .vmem, ⟨2, _⟩ => ⟨S1x1x128x128, .f32⟩
  | .local _ .vmem, ⟨3, _⟩ => ⟨S1x1x128x128, .f32⟩
  | .local _ .vmem, ⟨4, _⟩ => ⟨S1x1x128x2048, .f32⟩
  | .local _ .vmem, ⟨5, _⟩ => ⟨S1x1x128x2048, .f32⟩
  | .local _ .vmem, ⟨6, _⟩ => ⟨S1x1x2048x128, .f32⟩
  | .local _ .vmem, ⟨7, _⟩ => ⟨S1x1x2048x128, .f32⟩
  | .local _ .vmem, ⟨8, _⟩ => ⟨S1x1x2048x128, .f32⟩
  | .local _ .vmem, ⟨9, _⟩ => ⟨S1x1x2048x128, .f32⟩
  | _, _ => ⟨S8x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1x2048x128_S1x1x2048x128_0_0_0_0 : ∀ a, (![0, 0, 0, 0] : Fin 4 → Nat) a + S1x1x2048x128.size a ≤ S1x1x2048x128.size a
  h_S1x1x2048x128 : 0 < S1x1x2048x128.numel
  shapeCasts_S1x1x2048x128_S2048x128 : S1x1x2048x128.ShapeCasts S2048x128
  bitsLt_bf16_f32 : FTy.bits .bf16 < FTy.bits .f32
  inb_S1x1x128x128_S1x1x128x128_0_0_0_0 : ∀ a, (![0, 0, 0, 0] : Fin 4 → Nat) a + S1x1x128x128.size a ≤ S1x1x128x128.size a
  h_S1x1x128x128 : 0 < S1x1x128x128.numel
  shapeCasts_S1x1x128x128_S128x128 : S1x1x128x128.ShapeCasts S128x128
  inb_S1x1x128x2048_S1x1x128x2048_0_0_0_0 : ∀ a, (![0, 0, 0, 0] : Fin 4 → Nat) a + S1x1x128x2048.size a ≤ S1x1x128x2048.size a
  h_S1x1x128x2048 : 0 < S1x1x128x2048.numel
  shapeCasts_S1x1x128x2048_S128x2048 : S1x1x128x2048.ShapeCasts S128x2048
  reduces_S2048x128_S2048 : S2048x128.Reduces [1] S2048
  shapeCasts_S2048_S2048x1 : S2048.ShapeCasts S2048x1
  broadcasts_S2048x1_S2048x128 : S2048x1.Broadcasts S2048x128
  reduces_S128x2048_S128 : S128x2048.Reduces [1] S128
  shapeCasts_S128_S128x1 : S128.ShapeCasts S128x1
  broadcasts_S128x1_S128x2048 : S128x1.Broadcasts S128x2048
  shapeCasts_S2048x128_S1x1x2048x128 : S2048x128.ShapeCasts S1x1x2048x128
  dot_S2048x128_S128x128_S2048x128_1_0_0_1_n_n_wf : DotDims.WF S2048x128 S128x128 S2048x128 [1] [0] [0] [1] [] []
  dot_S128x128_S128x2048_S128x2048_1_0_0_1_n_n_wf : DotDims.WF S128x128 S128x2048 S128x2048 [1] [0] [0] [1] [] []
  dot_S128x2048_S2048x128_S128x128_1_0_0_1_n_n_wf : DotDims.WF S128x2048 S2048x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048x128.size a ≤ S8x16x2048x128.size a
  hwx0_0 : ∀ i : grid0.Coords, EltTy.bits .f32 = 32 ∨ (Rect.block (s := S8x16x2048x128) S1x1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x128.size a ≤ S8x16x128x128.size a
  hwx0_1 : ∀ i : grid0.Coords, EltTy.bits .f32 = 32 ∨ (Rect.block (s := S8x16x128x128) S1x1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128x2048.size a ≤ S8x16x128x2048.size a
  hwx0_2 : ∀ i : grid0.Coords, EltTy.bits .f32 = 32 ∨ (Rect.block (s := S8x16x128x2048) S1x1x128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048x128.size a ≤ S8x16x2048x128.size a
  hwx0_3 : ∀ i : grid0.Coords, EltTy.bits .f32 = 32 ∨ (Rect.block (s := S8x16x2048x128) S1x1x2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048x128.size a ≤ S8x16x2048x128.size a
  hwx0_4 : ∀ i : grid0.Coords, EltTy.bits .f32 = 32 ∨ (Rect.block (s := S8x16x2048x128) S1x1x2048x128.size (cc0_transform_4 i) (hinb0_4 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S128x128_S128x2048_S128x2048_1_0_0_1_n_n : DotDims S128x128 S128x2048 S128x2048 where
  lhsContracting := [1]
  rhsContracting := [0]
  lhsNonContracting := [0]
  rhsNonContracting := [1]
  lhsBatch := []
  rhsBatch := []
  wf := dot_S128x128_S128x2048_S128x2048_1_0_0_1_n_n_wf
def dot_S128x2048_S2048x128_S128x128_1_0_0_1_n_n : DotDims S128x2048 S2048x128 S128x128 where
  lhsContracting := [1]
  rhsContracting := [0]
  lhsNonContracting := [0]
  rhsNonContracting := [1]
  lhsBatch := []
  rhsBatch := []
  wf := dot_S128x2048_S2048x128_S128x128_1_0_0_1_n_n_wf

abbrev win0_0 : Pipeline.Window sig grid0 :=
  Pipeline.Window.ofSpec (Memref.whole main_arg0) S1x1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x16x2048x128 : Shape := ⟨4, ![8, 16, 2048, 128]⟩
abbrev S8x16x128x128 : Shape := ⟨4, ![8, 16, 128, 128]⟩
abbrev S8x16x128x2048 : Shape := ⟨4, ![8, 16, 128, 2048]⟩
abbrev S_ : Shape := ⟨0, ![]⟩
abbrev S8x16x2048 : Shape := ⟨3, ![8, 16, 2048]⟩
abbrev S8x16x2048x1 : Shape := ⟨4, ![8, 16, 2048, 1]⟩
abbrev S8x16x128 : Shape := ⟨3, ![8, 16, 128]⟩
abbrev S8x16x128x1 : Shape := ⟨4, ![8, 16, 128, 1]⟩

abbrev nBuf : Space → Nat
  | .hbm => 36
  | .vmem => 0
  | .smem => 0
  | _ => 0

abbrev bufTy : (tb : Table) → Fin (tcTables nBuf tb) → BufTy
  | .hbm, ⟨0, _⟩ => ⟨S8x16x2048x128, .f32⟩
  | .hbm, ⟨1, _⟩ => ⟨S8x16x128x128, .f32⟩
  | .hbm, ⟨2, _⟩ => ⟨S8x16x128x2048, .f32⟩
  | .hbm, ⟨3, _⟩ => ⟨S8x16x2048x128, .f32⟩
  | .hbm, ⟨4, _⟩ => ⟨S8x16x2048x128, .f32⟩
  | .hbm, ⟨5, _⟩ => ⟨S_, .f32⟩
  | .hbm, ⟨6, _⟩ => ⟨S8x16x2048, .f32⟩
  | .hbm, ⟨7, _⟩ => ⟨S_, .f32⟩
  | .hbm, ⟨8, _⟩ => ⟨S8x16x2048, .f32⟩
  | .hbm, ⟨9, _⟩ => ⟨S8x16x2048, .f32⟩
  | .hbm, ⟨10, _⟩ => ⟨S8x16x2048x1, .f32⟩
  | .hbm, ⟨11, _⟩ => ⟨S8x16x2048x128, .f32⟩
  | .hbm, ⟨12, _⟩ => ⟨S8x16x2048x128, .f32⟩
  | .hbm, ⟨13, _⟩ => ⟨S8x16x2048x128, .f32⟩
  | .hbm, ⟨14, _⟩ => ⟨S_, .f32⟩
  | .hbm, ⟨15, _⟩ => ⟨S8x16x2048, .f32⟩
  | .hbm, ⟨16, _⟩ => ⟨S8x16x2048x1, .f32⟩
  | .hbm, ⟨17, _⟩ => ⟨S8x16x2048x128, .f32⟩
  | .hbm, ⟨18, _⟩ => ⟨S8x16x2048x128, .f32⟩
  | .hbm, ⟨19, _⟩ => ⟨S8x16x128x2048, .f32⟩
  | .hbm, ⟨20, _⟩ => ⟨S_, .f32⟩
  | .hbm, ⟨21, _⟩ => ⟨S8x16x128, .f32⟩
  | .hbm, ⟨22, _⟩ => ⟨S_, .f32⟩
  | .hbm, ⟨23, _⟩ => ⟨S8x16x128, .f32⟩
  | .hbm, ⟨24, _⟩ => ⟨S8x16x128, .f32⟩
  | .hbm, ⟨25, _⟩ => ⟨S8x16x128x1, .f32⟩
  | .hbm, ⟨26, _⟩ => ⟨S8x16x128x2048, .f32⟩
  | .hbm, ⟨27, _⟩ => ⟨S8x16x128x2048, .f32⟩
  | .hbm, ⟨28, _⟩ => ⟨S8x16x128x2048, .f32⟩
  | .hbm, ⟨29, _⟩ => ⟨S_, .f32⟩
  | .hbm, ⟨30, _⟩ => ⟨S8x16x128, .f32⟩
  | .hbm, ⟨31, _⟩ => ⟨S8x16x128x1, .f32⟩
  | .hbm, ⟨32, _⟩ => ⟨S8x16x128x2048, .f32⟩
  | .hbm, ⟨33, _⟩ => ⟨S8x16x128x2048, .f32⟩
  | .hbm, ⟨34, _⟩ => ⟨S8x16x128x128, .f32⟩
  | .hbm, ⟨35, _⟩ => ⟨S8x16x2048x128, .f32⟩
  | _, _ => ⟨S8x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  reducesTo_S8x16x2048x128_S8x16x2048_d3 : S8x16x2048x128.ReducesTo [3] S8x16x2048
  h_S_ : 0 < S_.numel
  bcast_S_S8x16x2048 : S_.BroadcastsInDim S8x16x2048 (![] : Fin 0 → Fin S8x16x2048.rank)
  bcast_S8x16x2048_S8x16x2048x1_0_1_2 : S8x16x2048.BroadcastsInDim S8x16x2048x1 (![0, 1, 2] : Fin 3 → Fin S8x16x2048x1.rank)
  bcast_S8x16x2048x1_S8x16x2048x128_0_1_2_3 : S8x16x2048x1.BroadcastsInDim S8x16x2048x128 (![0, 1, 2, 3] : Fin 4 → Fin S8x16x2048x128.rank)
  reducesTo_S8x16x128x2048_S8x16x128_d3 : S8x16x128x2048.ReducesTo [3] S8x16x128
  bcast_S_S8x16x128 : S_.BroadcastsInDim S8x16x128 (![] : Fin 0 → Fin S8x16x128.rank)
  bcast_S8x16x128_S8x16x128x1_0_1_2 : S8x16x128.BroadcastsInDim S8x16x128x1 (![0, 1, 2] : Fin 3 → Fin S8x16x128x1.rank)
  bcast_S8x16x128x1_S8x16x128x2048_0_1_2_3 : S8x16x128x1.BroadcastsInDim S8x16x128x2048 (![0, 1, 2, 3] : Fin 4 → Fin S8x16x128x2048.rank)
  dot_S8x16x2048x128_S8x16x128x128_S8x16x2048x128_3_2_2_3_01_01_wf : DotDims.WF S8x16x2048x128 S8x16x128x128 S8x16x2048x128 [3] [2] [2] [3] [0, 1] [0, 1]
  dot_S8x16x128x128_S8x16x128x2048_S8x16x128x2048_3_2_2_3_01_01_wf : DotDims.WF S8x16x128x128 S8x16x128x2048 S8x16x128x2048 [3] [2] [2] [3] [0, 1] [0, 1]
  dot_S8x16x128x2048_S8x16x2048x128_S8x16x128x128_3_2_2_3_01_01_wf : DotDims.WF S8x16x128x2048 S8x16x2048x128 S8x16x128x128 [3] [2] [2] [3] [0, 1] [0, 1]

variable [Facts₀]

def dot_S8x16x2048x128_S8x16x128x128_S8x16x2048x128_3_2_2_3_01_01 : DotDims S8x16x2048x128 S8x16x128x128 S8x16x2048x128 where
  lhsContracting := [3]
  rhsContracting := [2]
  lhsNonContracting := [2]
  rhsNonContracting := [3]
  lhsBatch := [0, 1]
  rhsBatch := [0, 1]
  wf := dot_S8x16x2048x128_S8x16x128x128_S8x16x2048x128_3_2_2_3_01_01_wf
def dot_S8x16x128x128_S8x16x128x2048_S8x16x128x2048_3_2_2_3_01_01 : DotDims S8x16x128x128 S8x16x128x2048 S8x16x128x2048 where
  lhsContracting := [3]
  rhsContracting := [2]
  lhsNonContracting := [2]
  rhsNonContracting := [3]
  lhsBatch := [0, 1]
  rhsBatch := [0, 1]
  wf := dot_S8x16x128x128_S8x16x128x2048_S8x16x128x2048_3_2_2_3_01_01_wf
def dot_S8x16x128x2048_S8x16x2048x128_S8x16x128x128_3_2_2_3_01_01 : DotDims S8x16x128x2048 S8x16x2048x128 S8x16x128x128 where
  lhsContracting := [3]
  rhsContracting := [2]
  lhsNonContracting := [2]
  rhsNonContracting := [3]
  lhsBatch := [0, 1]
  rhsBatch := [0, 1]
  wf := dot_S8x16x128x2048_S8x16x2048x128_S8x16x128x128_3_2_2_3_01_01_wf

class Facts : Prop extends Facts₀ where

variable [Facts]
-- ==== Proof.LibRowOps.lean ====
/-
  Row-wise building blocks of a `keepdims` normalisation, each read at an entry, at exact arithmetic.

  A kernel that divides every row of an [a, b] block by the row's sum builds the divisor in three steps: the lane
  sum [a, b] → [a], the cast [a] → [a, 1] that restores the dropped axis as a unit axis, and the broadcast
  [a, 1] → [a, b] that repeats each row's sum along the row. Read at entry (p, c) the three steps compose to
  `Σₖ x(p, k)`. Beside them: a matrix product of an [m, K] block by an [n, K] block that contracts the two trailing
  axes (the right factor stored row-per-output-column), into a zero accumulator, read at entry (p, q) as
  `Σₖ left(p, k) · right(q, k)`.
-/
import Idealize.ShloMosaic.Lib.ValueIdx
import Idealize.ShloMosaic.Lib.Pipeline.Value
import Idealize.ShloMosaic.PureOps.Ideal.Laws

noncomputable section

namespace Cert.Lib.RowOps

open Idealize.ShloMosaic Idealize.ShloMosaic.TcCoe Idealize.SL.Sem Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` block over its second axis, read at row `p`, is the sum of the row's entries. -/
theorem multiReduction_add_lanes {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- The three steps composed: the row sum, kept as a unit axis and repeated along the row, read at `(p, c)`. -/
theorem rowSum_keepdims_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩) (p : Fin a) (c : Fin b) :
    broadcastTo ⟨2, ![a, b]⟩ (shapeCast ⟨2, ![a, 1]⟩ (multiReduction (F := Ideal) .add [1] ⟨1, ![a]⟩ src acc h hφ hacc) hc) hb (ix2 p c)
      = ∑ k : Fin b, src (ix2 p k) :=
  (broadcastTo_a1_ab_apply _ hb p c).trans ((shapeCast_a_a1_apply _ hc p 0).trans (multiReduction_add_lanes src acc h hφ hacc p))

/-- A TensorCore product of an m×K block by an n×K block contracting the two trailing axes, into a zero accumulator,
    read at entry (p, q): the sum over k of left (p, k) · right (q, k). The four hypotheses say where the product's
    dimension numbers send an output index and a contraction index: to (row, k) on the left and (column, k) on the
    right. -/
theorem matmul_nt_zero_ix2 {m K n : Nat} {φ₁ φ₂ : FTy} (D : DotDims ⟨2, ![m, K]⟩ ⟨2, ![n, K]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (i 1).val)
    (hr1 : ∀ (i : (⟨2, ![m, n]⟩ : Shape).Idx) (c : D.contr.Idx), (D.rhsIdx i c 1).val = (c ⟨0, by omega⟩).val)
    (lhs : FVec Ideal ⟨2, ![m, K]⟩ φ₁) (rhs : FVec Ideal ⟨2, ![n, K]⟩ φ₂) (p : Fin m) (q : Fin n) :
    matmul D none lhs rhs (constant (F := Ideal) ⟨2, ![m, n]⟩ .f32 0x00000000#32) (ix2 p q)
      = ∑ k : Fin K, lhs (ix2 p k) * rhs (ix2 q k) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Cert.Lib.RowOps

end
-- ==== Proof.LibRowSoftmax.lean ====
/-
  The row-wise log-softmax of an [a, N] array at exact arithmetic, read at an entry.

  `logSoftmax L` is, at (p, q), the entry minus its row's maximum (taken from minus infinity), minus the logarithm of the
  row's sum of exponentials of those differences.  A TensorCore body spells it with lane reductions: the lane maximum of
  each row kept as a unit axis, repeated along the row and subtracted; the exponentials summed along the row, the logarithm
  of the sum kept, repeated and subtracted (`softmaxBlock`); read at an entry that is `logSoftmax` of the block's entries
  (`softmaxBlock_entry`).  A lane maximum read at a row is the running maximum of the row's entries from the
  accumulator's value (`multiReduction_max_lanes`); taking the maximum with minus infinity once more changes nothing
  (`max_bot_rowMax`); and row p of the result depends on row p of the array only (`logSoftmax_eq`), so the log-softmax of
  a block of rows is that block of the log-softmax of the whole array.
-/
import Idealize.ShloMosaic.Lib.ValueIdx
import Idealize.ShloMosaic.Lib.Pipeline.Value
import Idealize.ShloMosaic.PureOps.Ideal.Laws
import proofs.«111125_j2130303779059_1_alg».proof.Proof.LibRowOps

noncomputable section

namespace Cert.Lib.RowSoftmax

open Idealize.ShloMosaic Idealize.ShloMosaic.TcCoe Idealize.SL.Sem Idealize.ShloMosaic.ValueIdx
open Cert.Lib.RowOps

variable {a a' N : Nat}

/-- The maximum of row p, taken from minus infinity. -/
def rowMax (L : Fin a → Fin N → EReal) (p : Fin a) : EReal :=
  (Finset.univ : Finset (Fin N)).fold max (Ideal.ofBits .f32 0xFF800000#32) (fun q => L p q)

/-- Entry (p, q) of the row-wise log-softmax: the entry minus its row's maximum, minus the logarithm of the row's sum of
    exponentials of those differences. -/
def logSoftmax (L : Fin a → Fin N → EReal) (p : Fin a) (q : Fin N) : EReal :=
  (L p q - rowMax L p) - Ideal.log (∑ r : Fin N, Ideal.exp (L p r - rowMax L p))

/-- The row maximum taken from minus infinity is at least minus infinity, so taking its maximum with minus infinity once
    more changes nothing. -/
theorem max_bot_rowMax (L : Fin a → Fin N → EReal) (p : Fin a) :
    max (Ideal.ofBits .f32 0xFF800000#32) (rowMax L p) = rowMax L p :=
  max_eq_right ((Finset.le_fold_max (s := (Finset.univ : Finset (Fin N))) (f := fun q => L p q) _).2 (Or.inl le_rfl))

/-- Row p of the log-softmax depends on row p of the array only. -/
theorem logSoftmax_eq {L : Fin a → Fin N → EReal} {L' : Fin a' → Fin N → EReal} {p : Fin a} {p' : Fin a'} (q : Fin N)
    (h : ∀ r, L p r = L' p' r) : logSoftmax L p q = logSoftmax L' p' q := by
  have hm : rowMax L p = rowMax L' p' := by
    unfold rowMax
    exact Finset.fold_congr fun r _ => h r
  unfold logSoftmax
  rw [hm, h q]
  exact congrArg (L' p' q - rowMax L' p' - Ideal.log ·) (Finset.sum_congr rfl fun r _ => by rw [h r])

/-- A lane maximum of an [a, b] block over its second axis, read at row p: the running maximum of the row's entries from
    the accumulator's value. -/
theorem multiReduction_max_lanes {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (p : Fin a) :
    multiReduction (F := Ideal) .maximumf [1] ⟨1, ![a]⟩ src acc h hφ hacc (ix1 p)
      = (Finset.univ : Finset (Fin b)).fold max (Ideal.ofBits .f32 acc) (fun k => src (ix2 p k)) := by
  refine (Ideal.multiReduction_maximumf_single src acc h hφ hacc (ix1 p)).trans ?_
  refine Finset.fold_congr fun k _ => congrArg src ?_
  funext c; apply Fin.ext
  match c with
  | ⟨0, _⟩ => rfl
  | ⟨1, _⟩ => rfl

/-- The log-softmax of each row as a body spells it — the lane maximum kept as a unit axis, repeated along the row and
    subtracted; the exponentials summed along the row, the logarithm of the sum kept, repeated and subtracted — read at
    entry (p, q). -/
def softmaxBlock {a N : ℕ} (X : FVec Ideal ⟨2, ![a, N]⟩ .f32) (h : (⟨2, ![a, N]⟩ : Shape).Reduces [1] ⟨1, ![a]⟩)
    (hc : (⟨1, ![a]⟩ : Shape).ShapeCasts ⟨2, ![a, 1]⟩) (hb : (⟨2, ![a, 1]⟩ : Shape).Broadcasts ⟨2, ![a, N]⟩) :
    FVec Ideal ⟨2, ![a, N]⟩ .f32 :=
  subf (subf X (broadcastTo ⟨2, ![a, N]⟩ (shapeCast ⟨2, ![a, 1]⟩ (multiReduction .maximumf [1] ⟨1, ![a]⟩ X 0xFF800000#32 h (.inl rfl) rfl) hc) hb))
    (broadcastTo ⟨2, ![a, N]⟩ (log (shapeCast ⟨2, ![a, 1]⟩ (multiReduction .add [1] ⟨1, ![a]⟩
      (exp (subf X (broadcastTo ⟨2, ![a, N]⟩ (shapeCast ⟨2, ![a, 1]⟩ (multiReduction .maximumf [1] ⟨1, ![a]⟩ X 0xFF800000#32 h (.inl rfl) rfl) hc) hb)))
      0x00000000#32 h (.inl rfl) rfl) hc)) hb)

/-- Read at entry (p, q), the block a body forms this way is the log-softmax of the block's entries. -/
theorem softmaxBlock_entry {a N : ℕ} (X : FVec Ideal ⟨2, ![a, N]⟩ .f32) (h : (⟨2, ![a, N]⟩ : Shape).Reduces [1] ⟨1, ![a]⟩)
    (hc : (⟨1, ![a]⟩ : Shape).ShapeCasts ⟨2, ![a, 1]⟩) (hb : (⟨2, ![a, 1]⟩ : Shape).Broadcasts ⟨2, ![a, N]⟩)
    (p : Fin a) (q : Fin N) :
    softmaxBlock X h hc hb (ix2 p q) = logSoftmax (fun p q => X (ix2 p q)) p q := by
  have hmax : ∀ r : Fin N, broadcastTo ⟨2, ![a, N]⟩ (shapeCast ⟨2, ![a, 1]⟩
      (multiReduction (F := Ideal) .maximumf [1] ⟨1, ![a]⟩ X 0xFF800000#32 h (.inl rfl) rfl) hc) hb (ix2 p r)
      = rowMax (fun p q => X (ix2 p q)) p := fun r =>
    (broadcastTo_a1_ab_apply _ hb p r).trans ((shapeCast_a_a1_apply _ hc p 0).trans
      (multiReduction_max_lanes X 0xFF800000#32 h (.inl rfl) rfl p))
  unfold softmaxBlock logSoftmax
  rw [subf_apply, subf_apply, hmax q, broadcastTo_a1_ab_apply]
  refine congrArg (X (ix2 p q) - rowMax (fun p q => X (ix2 p q)) p - ·) ?_
  show Ideal.log (shapeCast ⟨2, ![a, 1]⟩ _ hc (ix2 p (0 : Fin 1))) = _
  rw [shapeCast_a_a1_apply _ hc p 0]
  refine congrArg Ideal.log ((multiReduction_add_lanes _ _ h _ _ p).trans (Finset.sum_congr rfl fun r _ => ?_))
  show Ideal.exp (X (ix2 p r) - _) = _
  rw [hmax r]

end Cert.Lib.RowSoftmax

end
-- ==== Proof.LibSoftmaxRows.lean ====
/-
  The row-wise softmax of an [a, N] array at exact arithmetic, read at an entry, and products of matrices given by their
  entries.

  `softmax L` is, at (p, q), the exponential of the entry minus its row's maximum (taken from minus infinity), divided by
  the row's sum of those exponentials (`expRow` is the numerator).  A TensorCore body spells it with lane reductions: the
  lane maximum of each row, its maximum with minus infinity, kept as a unit axis, repeated along the row and subtracted;
  the exponentials summed along the row, the sum kept as a unit axis, repeated along the row, and the exponentials divided
  by it (`expRowsBlock`, `softmaxRowsBlock`); read at an entry these are `expRow` and `softmax` of the block's entries.
  The host spells the row maximum as a reduction of a rank-4 array [B, H, a, N] over its last axis; read at (b, g, p) it is
  the running maximum of the entries (b, g, p, ·) from the initial value (`hostReduce_max_last`).  `mm A B` is the matrix
  product of two matrices of entries, and the casts between [1, 1, a, b] and [a, b] read at an entry move no entry.
-/
import Idealize.ShloMosaic.Lib.ValueIdx
import Idealize.ShloMosaic.Lib.Pipeline.Value
import Idealize.ShloMosaic.PureOps.Ideal.Laws
import proofs.«111125_j2130303779059_1_alg».proof.Proof.LibRowOps
import proofs.«111125_j2130303779059_1_alg».proof.Proof.LibRowSoftmax

noncomputable section

namespace Cert.Lib.SoftmaxRows

open Idealize.ShloMosaic Idealize.ShloMosaic.TcCoe Idealize.SL.Sem Idealize.ShloMosaic.ValueIdx
open Cert.Lib.RowOps Cert.Lib.RowSoftmax

variable {α : Type}

/-- Entry (p, q) of the product of an M×K by a K×N matrix of entries. -/
def mm {M K N : Nat} (A : Fin M → Fin K → EReal) (B : Fin K → Fin N → EReal) (p : Fin M) (q : Fin N) : EReal :=
  ∑ k : Fin K, A p k * B k q

/-- The exponential of entry (p, q) minus its row's maximum. -/
def expRow {a N : Nat} (L : Fin a → Fin N → EReal) (p : Fin a) (q : Fin N) : EReal :=
  Ideal.exp (L p q - rowMax L p)

/-- Entry (p, q) of the row-wise softmax: the exponential of the entry minus its row's maximum, divided by the row's sum
    of those exponentials. -/
def softmax {a N : Nat} (L : Fin a → Fin N → EReal) (p : Fin a) (q : Fin N) : EReal :=
  Ideal.div (expRow L p q) (∑ r : Fin N, expRow L p r)

/-- A `[1, 1, a, b]` array cast to `[a, b]` reads, at `(p, q)`, the operand at `(0, 0, p, q)`. -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show (((0 * 1 + 0) * a + p.val) * b + q.val) = p.val * b + q.val
    simp only [Nat.zero_mul, Nat.zero_add])

/-- An `[a, b]` array cast to `[1, 1, a, b]` reads, at `(u, u', p, q)`, the operand at `(p, q)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (p : Fin a) (q : Fin b) :
    shapeCast ⟨4, ![1, 1, a, b]⟩ x h (ix4 u u' p q) = x (ix2 p q) :=
  shapeCast_apply x h _ _ (by
    have hu : u.val = 0 := by omega
    have hu' : u'.val = 0 := by omega
    rw [Shape.rowMajor_val_four, Shape.rowMajor_val_two]
    show p.val * b + q.val = (((u.val * 1 + u'.val) * a + p.val) * b + q.val)
    rw [hu, hu']
    simp only [Nat.zero_mul, Nat.zero_add])

/-- The exponentials of each row's entries minus the row's maximum, as a body spells them: the lane maximum, its
    maximum with minus infinity, kept as a unit axis, repeated along the row and subtracted, then the exponential. -/
def expRowsBlock {a N : ℕ} (X : FVec Ideal ⟨2, ![a, N]⟩ .f32) (h : (⟨2, ![a, N]⟩ : Shape).Reduces [1] ⟨1, ![a]⟩)
    (hc : (⟨1, ![a]⟩ : Shape).ShapeCasts ⟨2, ![a, 1]⟩) (hb : (⟨2, ![a, 1]⟩ : Shape).Broadcasts ⟨2, ![a, N]⟩) :
    FVec Ideal ⟨2, ![a, N]⟩ .f32 :=
  exp (subf X (broadcastTo ⟨2, ![a, N]⟩ (shapeCast ⟨2, ![a, 1]⟩
    (maximumf (broadcast ⟨1, ![a]⟩ (Scalar.ofBits .f32 0xFF800000#32))
      (multiReduction .maximumf [1] ⟨1, ![a]⟩ X 0xFF800000#32 h (.inl rfl) rfl)) hc) hb))

/-- Read at entry (p, q), that block is `expRow` of the block's entries. -/
theorem expRowsBlock_entry {a N : ℕ} (X : FVec Ideal ⟨2, ![a, N]⟩ .f32) (h : (⟨2, ![a, N]⟩ : Shape).Reduces [1] ⟨1, ![a]⟩)
    (hc : (⟨1, ![a]⟩ : Shape).ShapeCasts ⟨2, ![a, 1]⟩) (hb : (⟨2, ![a, 1]⟩ : Shape).Broadcasts ⟨2, ![a, N]⟩)
    (p : Fin a) (q : Fin N) :
    expRowsBlock X h hc hb (ix2 p q) = expRow (fun p q => X (ix2 p q)) p q := by
  unfold expRowsBlock expRow
  show Ideal.exp (X (ix2 p q) - broadcastTo ⟨2, ![a, N]⟩ _ hb (ix2 p q)) = _
  rw [broadcastTo_a1_ab_apply _ hb p q, shapeCast_a_a1_apply _ hc p 0]
  show Ideal.exp (X (ix2 p q) - max (Ideal.ofBits .f32 0xFF800000#32)
    (multiReduction (F := Ideal) .maximumf [1] ⟨1, ![a]⟩ X 0xFF800000#32 h (.inl rfl) rfl (ix1 p))) = _
  rw [multiReduction_max_lanes X 0xFF800000#32 h (.inl rfl) rfl p]
  exact congrArg (fun z => Ideal.exp (X (ix2 p q) - z)) (max_bot_rowMax (fun p q => X (ix2 p q)) p)

/-- The softmax of each row as a body spells it: the exponentials above, summed along the row, the sum kept as a unit
    axis and repeated along the row, and the exponentials divided by it. -/
def softmaxRowsBlock {a N : ℕ} (X : FVec Ideal ⟨2, ![a, N]⟩ .f32) (h : (⟨2, ![a, N]⟩ : Shape).Reduces [1] ⟨1, ![a]⟩)
    (hc : (⟨1, ![a]⟩ : Shape).ShapeCasts ⟨2, ![a, 1]⟩) (hb : (⟨2, ![a, 1]⟩ : Shape).Broadcasts ⟨2, ![a, N]⟩) :
    FVec Ideal ⟨2, ![a, N]⟩ .f32 :=
  divf (expRowsBlock X h hc hb) (broadcastTo ⟨2, ![a, N]⟩ (shapeCast ⟨2, ![a, 1]⟩
    (multiReduction .add [1] ⟨1, ![a]⟩ (expRowsBlock X h hc hb) 0x00000000#32 h (.inl rfl) rfl) hc) hb)

/-- Read at entry (p, q), that block is the softmax of the block's entries. -/
theorem softmaxRowsBlock_entry {a N : ℕ} (X : FVec Ideal ⟨2, ![a, N]⟩ .f32) (h : (⟨2, ![a, N]⟩ : Shape).Reduces [1] ⟨1, ![a]⟩)
    (hc : (⟨1, ![a]⟩ : Shape).ShapeCasts ⟨2, ![a, 1]⟩) (hb : (⟨2, ![a, 1]⟩ : Shape).Broadcasts ⟨2, ![a, N]⟩)
    (p : Fin a) (q : Fin N) :
    softmaxRowsBlock X h hc hb (ix2 p q) = softmax (fun p q => X (ix2 p q)) p q := by
  unfold softmaxRowsBlock softmax
  show Ideal.div (expRowsBlock X h hc hb (ix2 p q)) (broadcastTo ⟨2, ![a, N]⟩ _ hb (ix2 p q)) = _
  refine congrArg₂ Ideal.div (expRowsBlock_entry X h hc hb p q) ?_
  refine (rowSum_keepdims_apply (expRowsBlock X h hc hb) 0x00000000#32 h (.inl rfl) rfl hc hb p q).trans ?_
  exact Finset.sum_congr rfl fun r _ => expRowsBlock_entry X h hc hb p r

/-- The host's maximum-reduction of a rank-4 array [B, H, a, N] over its last axis, read at (b, g, p): the running maximum
    of the entries (b, g, p, ·) from the initial value. -/
theorem hostReduce_max_last {B H a N : ℕ} (x : (⟨4, ![B, H, a, N]⟩ : Shape).Idx → EReal)
    (init : (⟨0, ![]⟩ : Shape).Idx → EReal)
    (h' : (⟨4, ![B, H, a, N]⟩ : Shape).ReducesTo [3] ⟨3, ![B, H, a]⟩)
    (h : (⟨4, ![B, H, a, N]⟩ : Shape).Reduces [3] ⟨3, ![B, H, a]⟩) (hu : 0 < (⟨0, ![]⟩ : Shape).numel)
    (b : Fin B) (g : Fin H) (p : Fin a) :
    Host.reduce (FloatOps.maximumf (F := Ideal) (φ := .f32)) x init h' hu (ix3 b g p)
      = (Finset.univ : Finset (Fin N)).fold max (init ix0) (fun k => x (ix4 b g p k)) := by
  refine (Host.reduce_eq_fold_single (FloatOps.maximumf (F := Ideal) (φ := .f32)) x init h' h hu (ix3 b g p)).trans ?_
  rw [eq_ix0 (Shape.Idx.first hu)]
  refine Finset.fold_congr fun k _ => congrArg x ?_
  funext c; apply Fin.ext
  match c with
  | ⟨0, _⟩ => rfl
  | ⟨1, _⟩ => rfl
  | ⟨2, _⟩ => rfl
  | ⟨3, _⟩ => rfl

end Cert.Lib.SoftmaxRows

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.LibMatProduct.lean ====
/-
  The matrix product at exact arithmetic, as ONE function of two matrices (`Cert.Dense.mm`): entry (p, q) of an m×K
  matrix times a K×n matrix is the sum over k of left (p, k) · right (k, q). The host's dot_general whose dimension
  numbers contract the left factor's columns against the right factor's rows IS this function (an equation between
  functions, so it rewrites under any later stage), and a TensorCore product with the same dimension numbers into a
  zero accumulator has this function's entries. General: no program is named; the hypotheses on the dimension record
  are its six lists, each closed by `rfl` at a printed record.
-/
import Idealize.ShloMosaic.Lib.ValueIdx
import Idealize.ShloMosaic.PureOps.Ideal.Laws
import proofs.«111125_j2130303779059_1_alg».proof.Proof.LibDotEntry
import proofs.«111125_j2130303779059_1_alg».proof.Proof.LibMatDims

noncomputable section

namespace Cert.Dense

open Idealize.ShloMosaic Idealize.ShloMosaic.TcCoe Idealize.SL.Sem Idealize.ShloMosaic.ValueIdx

/-- The product of an m×K matrix by a K×n matrix on the extended reals. -/
def mm {m K n : Nat} (x : FVec Ideal ⟨2, ![m, K]⟩ .f32) (w : FVec Ideal ⟨2, ![K, n]⟩ .f32) : FVec Ideal ⟨2, ![m, n]⟩ .f32 :=
  fun i => ∑ k : Fin K, x (ix2 (i 0) k) * w (ix2 k (i 1))

theorem mm_apply {m K n : Nat} (x : FVec Ideal ⟨2, ![m, K]⟩ .f32) (w : FVec Ideal ⟨2, ![K, n]⟩ .f32) (p : Fin m) (q : Fin n) :
    mm x w (ix2 p q) = ∑ k : Fin K, x (ix2 p k) * w (ix2 k q) := rfl

/-- The host's product with plain matrix dimension numbers (no batch axis, the left factor's axis 1 contracted against
    the right factor's axis 0) is the matrix product. -/
theorem dotGeneral_eq_mm {m K n : Nat} (D : DotDims ⟨2, ![m, K]⟩ ⟨2, ![K, n]⟩ ⟨2, ![m, n]⟩)
    (hlb : D.lhsBatch = []) (hrb : D.rhsBatch = []) (hlc : D.lhsContracting = [1]) (hrc : D.rhsContracting = [0])
    (hln : D.lhsNonContracting = [0]) (hrn : D.rhsNonContracting = [1])
    (x : FVec Ideal ⟨2, ![m, K]⟩ .f32) (w : FVec Ideal ⟨2, ![K, n]⟩ .f32) :
    Host.dotGeneral (F := Ideal) D none x w = mm x w := by
  funext i
  obtain ⟨p, q, rfl⟩ : ∃ (p : Fin m) (q : Fin n), i = ix2 p q := ⟨i 0, i 1, eq_ix2 i⟩
  exact Cert.Lib.DotEntry.dotGeneral_ix2 D (Cert.Lib.MatDims.contr_rank D hlc) (Cert.Lib.MatDims.contr_size D hlc)
    (Cert.Lib.MatDims.lhs_row D hlb hln) (Cert.Lib.MatDims.lhs_col D hlc) (Cert.Lib.MatDims.rhs_row D hlc hrc)
    (Cert.Lib.MatDims.rhs_col D hlb hrb hln hrn) x w p q

/-- A TensorCore product with the same dimension numbers into a zero accumulator, read at an entry, is the matrix
    product's entry. The two factors may carry any float format: at exact arithmetic a format is a label. -/
theorem matmul_zero_apply {m K n : Nat} {φ₁ φ₂ : FTy} (D : DotDims ⟨2, ![m, K]⟩ ⟨2, ![K, n]⟩ ⟨2, ![m, n]⟩)
    (hlb : D.lhsBatch = []) (hrb : D.rhsBatch = []) (hlc : D.lhsContracting = [1]) (hrc : D.rhsContracting = [0])
    (hln : D.lhsNonContracting = [0]) (hrn : D.rhsNonContracting = [1])
    (x : FVec Ideal ⟨2, ![m, K]⟩ φ₁) (w : FVec Ideal ⟨2, ![K, n]⟩ φ₂) (p : Fin m) (q : Fin n) :
    matmul D none x w (constant (F := Ideal) ⟨2, ![m, n]⟩ .f32 0x00000000#32) (ix2 p q)
      = ∑ k : Fin K, x (ix2 p k) * w (ix2 k q) :=
  Cert.Lib.DotEntry.matmul_zero_ix2 D (Cert.Lib.MatDims.contr_rank D hlc) (Cert.Lib.MatDims.contr_size D hlc)
    (Cert.Lib.MatDims.lhs_row D hlb hln) (Cert.Lib.MatDims.lhs_col D hlc) (Cert.Lib.MatDims.rhs_row D hlc hrc)
    (Cert.Lib.MatDims.rhs_col D hlb hrb hln hrn) x w p q

end Cert.Dense

end
-- ==== Proof.Attention.lean ====
/-
  Two chained softmax-of-product stages ("agent attention"), entry by entry, at exact arithmetic.

  For one head, with Q an n×d matrix, A a d×d matrix, K a d×m matrix and V an m×v matrix of extended reals:
  the first stage is the row-wise softmax of Q·A (n×d), the second the row-wise softmax of A·K (d×m); the second is
  multiplied by V (d×v) and the first by that product (n×v):
      attn Q A K V = softmax(Q·A) · (softmax(A·K) · V).
  `G q a k v` is that function applied head by head to four arrays [8, 16, ·, ·]: its entry (b, g, n, c) is the entry
  (n, c) of `attn` of the four matrices the arrays hold at head (b, g).
-/
import Idealize.ShloMosaic.Lib.ValueIdx
import Idealize.ShloMosaic.PureOps.Ideal
import proofs.«111125_j2130303779059_1_alg».proof.Proof.LibSoftmaxRows

noncomputable section

namespace Cert.Attention

open Idealize.ShloMosaic Idealize.ShloMosaic.ValueIdx Cert.Lib.SoftmaxRows

/-- softmax(Q·A) · (softmax(A·K) · V), as a function of the four matrices' entries. -/
def attn {n d m v : Nat} (Q : Fin n → Fin d → EReal) (A : Fin d → Fin d → EReal) (K : Fin d → Fin m → EReal)
    (V : Fin m → Fin v → EReal) : Fin n → Fin v → EReal :=
  mm (softmax (mm Q A)) (mm (softmax (mm A K)) V)

/-- The matrix an array [B, H, a, b] holds at head (b, g). -/
def head {B H a b : Nat} (x : (⟨4, ![B, H, a, b]⟩ : Shape).Idx → EReal) (i : Fin B) (g : Fin H) : Fin a → Fin b → EReal :=
  fun p q => x (ix4 i g p q)

/-- Entry (b, g, n, c) of the result: `attn` of the four matrices at head (b, g), at (n, c). -/
def Gat (q : (⟨4, ![8, 16, 2048, 128]⟩ : Shape).Idx → EReal) (a : (⟨4, ![8, 16, 128, 128]⟩ : Shape).Idx → EReal)
    (k : (⟨4, ![8, 16, 128, 2048]⟩ : Shape).Idx → EReal) (v : (⟨4, ![8, 16, 2048, 128]⟩ : Shape).Idx → EReal)
    (b : Fin 8) (g : Fin 16) (n : Fin 2048) (c : Fin 128) : EReal :=
  attn (head q b g) (head a b g) (head k b g) (head v b g) n c

/-- The result array as one function of the four argument arrays. -/
def G (q : (⟨4, ![8, 16, 2048, 128]⟩ : Shape).Idx → EReal) (a : (⟨4, ![8, 16, 128, 128]⟩ : Shape).Idx → EReal)
    (k : (⟨4, ![8, 16, 128, 2048]⟩ : Shape).Idx → EReal) (v : (⟨4, ![8, 16, 2048, 128]⟩ : Shape).Idx → EReal) :
    (⟨4, ![8, 16, 2048, 128]⟩ : Shape).Idx → EReal :=
  fun i => Gat q a k v (i 0) (i 1) (i 2) (i 3)

theorem G_ix4 (q : (⟨4, ![8, 16, 2048, 128]⟩ : Shape).Idx → EReal) (a : (⟨4, ![8, 16, 128, 128]⟩ : Shape).Idx → EReal)
    (k : (⟨4, ![8, 16, 128, 2048]⟩ : Shape).Idx → EReal) (v : (⟨4, ![8, 16, 2048, 128]⟩ : Shape).Idx → EReal)
    (b : Fin 8) (g : Fin 16) (n : Fin 2048) (c : Fin 128) : G q a k v (ix4 b g n c) = Gat q a k v b g n c := rfl

end Cert.Attention

end
-- ==== Proof.KernelEntry.lean ====
/-
  What the kernel's body leaves in its output block, entry by entry.

  At one grid point the body loads four blocks [1, 1, ·, ·] — x0 (2048×128), x1 (128×128), x2 (128×2048), x3 (2048×128) —
  and stores one block [1, 1, 2048, 128].  With Q, A, K, V the four matrices the blocks hold, the stored block's entry
  (0, 0, n, c) is entry (n, c) of softmax(Q·A) · (softmax(A·K) · V): the narrowing to bf16 before each product is the
  identity at exact arithmetic, each product into a zero accumulator is the matrix product, and each softmax is spelt
  with lane reductions whose keepdims results are repeated along the rows.
-/
import proofs.«111125_j2130303779059_1_alg».proof.Proof.Gen.KernelIdeal.Frame
import Idealize.ShloMosaic.Lib.ValueIdx
import Idealize.ShloMosaic.Lib.Pipeline.Value
import Idealize.ShloMosaic.PureOps.Ideal.Laws
import proofs.«111125_j2130303779059_1_alg».proof.Proof.LibSoftmaxRows
import proofs.«111125_j2130303779059_1_alg».proof.Proof.LibMatProduct
import proofs.«111125_j2130303779059_1_alg».proof.Proof.Attention

noncomputable section

namespace Cert.KernelIdeal.Entry

open Cert.KernelIdeal Cert.KernelIdeal.Gen Idealize.ShloMosaic Idealize.ShloMosaic.TcCoe Idealize.SL.Sem
open Idealize.ShloMosaic.ValueIdx Cert.Lib.RowOps Cert.Lib.SoftmaxRows Cert.Attention

theorem hz : (![0, 0, 0, 0] : Fin 4 → Nat) = fun _ => 0 := funext fun a => by fin_cases a <;> rfl

variable (x0 : Vec Ideal S1x1x2048x128 .f32) (x1 : Vec Ideal S1x1x128x128 .f32) (x2 : Vec Ideal S1x1x128x2048 .f32)
  (x3 : Vec Ideal S1x1x2048x128 .f32)

/-- The narrowed A block, at (d, e): the block's entry (0, 0, d, e). -/
theorem pay2_entry (d e : Fin 128) : k0_pay2 (F := Ideal) x1 (ix2 d e) = head x1 0 0 d e :=
  shapeCast_11ab_ab_apply x1 shapeCasts_S1x1x128x128_S128x128 d e

/-- The narrowed V block, at (r, c): the block's entry (0, 0, r, c). -/
theorem pay3_entry (r : Fin 2048) (c : Fin 128) : k0_pay3 (F := Ideal) x3 (ix2 r c) = head x3 0 0 r c :=
  shapeCast_11ab_ab_apply x3 shapeCasts_S1x1x2048x128_S2048x128 r c

/-- Q·A as the body forms it: the narrowed Q block times the narrowed A block into a zero accumulator. -/
def qa : FVec Ideal S2048x128 .f32 :=
  matmul dot_S2048x128_S128x128_S2048x128_1_0_0_1_n_n none
    (truncf .bf16 (shapeCast S2048x128 x0 shapeCasts_S1x1x2048x128_S2048x128) bitsLt_bf16_f32) (k0_pay2 x1)
    (constant S2048x128 .f32 0x00000000#32)

theorem qa_entry (n : Fin 2048) (e : Fin 128) : qa x0 x1 (ix2 n e) = mm (head x0 0 0) (head x1 0 0) n e := by
  refine (Cert.Dense.matmul_zero_apply dot_S2048x128_S128x128_S2048x128_1_0_0_1_n_n rfl rfl rfl rfl rfl rfl _ _ n e).trans ?_
  exact Finset.sum_congr rfl fun k _ => congrArg₂ (· * ·)
    (shapeCast_11ab_ab_apply x0 shapeCasts_S1x1x2048x128_S2048x128 n k) (pay2_entry x1 k e)

/-- The first stage: the narrowed softmax(Q·A), at (n, e). -/
theorem pay4_entry (n : Fin 2048) (e : Fin 128) :
    k0_pay4 (F := Ideal) x0 x1 (ix2 n e) = softmax (mm (head x0 0 0) (head x1 0 0)) n e := by
  refine (softmaxRowsBlock_entry (qa x0 x1) reduces_S2048x128_S2048 shapeCasts_S2048_S2048x1
    broadcasts_S2048x1_S2048x128 n e).trans ?_
  rw [show (fun p q => qa x0 x1 (ix2 p q)) = mm (head x0 0 0) (head x1 0 0) from
    funext fun p => funext fun q => qa_entry x0 x1 p q]

/-- A·K as the body forms it. -/
def ak : FVec Ideal S128x2048 .f32 :=
  matmul dot_S128x128_S128x2048_S128x2048_1_0_0_1_n_n none (k0_pay2 x1)
    (truncf .bf16 (shapeCast S128x2048 x2 shapeCasts_S1x1x128x2048_S128x2048) bitsLt_bf16_f32)
    (constant S128x2048 .f32 0x00000000#32)

theorem ak_entry (d : Fin 128) (r : Fin 2048) : ak x1 x2 (ix2 d r) = mm (head x1 0 0) (head x2 0 0) d r := by
  refine (Cert.Dense.matmul_zero_apply dot_S128x128_S128x2048_S128x2048_1_0_0_1_n_n rfl rfl rfl rfl rfl rfl _ _ d r).trans ?_
  exact Finset.sum_congr rfl fun k _ => congrArg₂ (· * ·) (pay2_entry x1 d k)
    (shapeCast_11ab_ab_apply x2 shapeCasts_S1x1x128x2048_S128x2048 k r)

/-- The second stage's numerators: the exponentials of A·K minus each row's maximum, at (d, r). -/
theorem pay5_entry (d : Fin 128) (r : Fin 2048) :
    k0_pay5 (F := Ideal) x1 x2 (ix2 d r) = expRow (mm (head x1 0 0) (head x2 0 0)) d r := by
  refine (expRowsBlock_entry (ak x1 x2) reduces_S128x2048_S128 shapeCasts_S128_S128x1
    broadcasts_S128x1_S128x2048 d r).trans ?_
  rw [show (fun p q => ak x1 x2 (ix2 p q)) = mm (head x1 0 0) (head x2 0 0) from
    funext fun p => funext fun q => ak_entry x1 x2 p q]

/-- The second stage's denominators: each row's sum of those exponentials, at d. -/
theorem pay6_entry (d : Fin 128) :
    k0_pay6 (F := Ideal) x1 x2 (ix1 d) = ∑ r : Fin 2048, expRow (mm (head x1 0 0) (head x2 0 0)) d r := by
  refine (multiReduction_add_lanes (k0_pay5 (F := Ideal) x1 x2) 0x00000000#32 reduces_S128x2048_S128 (.inl rfl) rfl d).trans ?_
  exact Finset.sum_congr rfl fun r _ => pay5_entry x1 x2 d r

/-- The stored block from the four values the first part of the body hands over: the second stage's numerators divided
    by their row sums, times V, and the first stage times that product. -/
theorem pay1_entry (v11 : FVec Ideal S2048x128 .bf16) (v24 : FVec Ideal S2048x128 .bf16) (v32 : FVec Ideal S128x2048 .f32)
    (v33 : FVec Ideal S128 .f32) (n : Fin 2048) (c : Fin 128) :
    k0_pay1 (F := Ideal) v11 v24 v32 v33 (ix4 (0 : Fin 1) (0 : Fin 1) n c)
      = ∑ e : Fin 128, v24 (ix2 n e) * ∑ r : Fin 2048, Ideal.div (v32 (ix2 e r)) (v33 (ix1 e)) * v11 (ix2 r c) := by
  show shapeCast S1x1x2048x128 (matmul dot_S2048x128_S128x128_S2048x128_1_0_0_1_n_n none v24 _ (constant S2048x128 .f32 0x00000000#32))
    shapeCasts_S2048x128_S1x1x2048x128 (ix4 (0 : Fin 1) (0 : Fin 1) n c) = _
  refine (shapeCast_ab_11ab_apply _ shapeCasts_S2048x128_S1x1x2048x128 0 0 n c).trans ?_
  refine (Cert.Dense.matmul_zero_apply dot_S2048x128_S128x128_S2048x128_1_0_0_1_n_n rfl rfl rfl rfl rfl rfl v24 _ n c).trans ?_
  refine Finset.sum_congr rfl fun e _ => congrArg (v24 (ix2 n e) * ·) ?_
  refine (Cert.Dense.matmul_zero_apply dot_S128x2048_S2048x128_S128x128_1_0_0_1_n_n rfl rfl rfl rfl rfl rfl _ v11 e c).trans ?_
  refine Finset.sum_congr rfl fun r _ => congrArg (· * v11 (ix2 r c)) ?_
  show Ideal.div (v32 (ix2 e r)) (broadcastTo S128x2048 (shapeCast S128x1 v33 shapeCasts_S128_S128x1)
    broadcasts_S128x1_S128x2048 (ix2 e r)) = _
  rw [broadcastTo_a1_ab_apply _ broadcasts_S128x1_S128x2048 e r, shapeCast_a_a1_apply _ shapeCasts_S128_S128x1 e 0]

/-- THE BODY'S RESULT at entry (0, 0, n, c): softmax(Q·A) · (softmax(A·K) · V) of the four blocks' matrices. -/
theorem out_entry (n : Fin 2048) (c : Fin 128) :
    out0_4 (F := Ideal) x0 x1 x2 x3 (ix4 (0 : Fin 1) (0 : Fin 1) n c)
      = attn (head x0 0 0) (head x1 0 0) (head x2 0 0) (head x3 0 0) n c := by
  unfold out0_4
  rw [View.canon_unit_zero hz]
  simp only [View.ld_unit_zero (S := S1x1x2048x128) hz, View.ld_unit_zero (S := S1x1x128x128) hz,
    View.ld_unit_zero (S := S1x1x128x2048) hz]
  refine (pay1_entry _ _ _ _ n c).trans ?_
  unfold attn
  refine Finset.sum_congr rfl fun e _ => congrArg₂ (· * ·) (pay4_entry x0 x1 n e)
    (Finset.sum_congr rfl fun r _ => congrArg₂ (· * ·) ?_ (pay3_entry x3 r c))
  unfold softmax
  rw [pay5_entry, pay6_entry]

end Cert.KernelIdeal.Entry

end
-- ==== Proof.KernelArray.lean ====
/-
  The kernel's result array as one function of the argument arrays.

  The grid has one point per head (b, g); at that point every input window's block is the head's [1, 1, ·, ·] slab of its
  array and the output window's block is the head's slab of the result.  So the block point (b, g) writes back is the
  head's slab of `G` of the argument arrays, the 128 slabs fill the result array, and after the run the array holds `G`.
-/
import proofs.«111125_j2130303779059_1_alg».proof.Proof.Gen.KernelIdeal.Value
import Idealize.ShloMosaic.Lib.Pipeline.Value
import proofs.«111125_j2130303779059_1_alg».proof.Proof.KernelEntry

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Attention

variable (m : (ℓ : Loc nD τ sig) → Buf (Elt Ideal) ℓ) (ρ : Dev nD → PrngReg)

/-- The printed index maps, decided over the 128 grid points: every window's block index is (b, g, 0, 0) with (b, g)
    the output window's, and b < 8, g < 16. -/
theorem idx_facts : ∀ t : Fin cfg0.N,
    (win0_0.index t (0 : Fin 4) = win0_4.index t (0 : Fin 4) ∧ win0_0.index t (1 : Fin 4) = win0_4.index t (1 : Fin 4)
      ∧ win0_0.index t (2 : Fin 4) = 0 ∧ win0_0.index t (3 : Fin 4) = 0)
    ∧ (win0_1.index t (0 : Fin 4) = win0_4.index t (0 : Fin 4) ∧ win0_1.index t (1 : Fin 4) = win0_4.index t (1 : Fin 4)
      ∧ win0_1.index t (2 : Fin 4) = 0 ∧ win0_1.index t (3 : Fin 4) = 0)
    ∧ (win0_2.index t (0 : Fin 4) = win0_4.index t (0 : Fin 4) ∧ win0_2.index t (1 : Fin 4) = win0_4.index t (1 : Fin 4)
      ∧ win0_2.index t (2 : Fin 4) = 0 ∧ win0_2.index t (3 : Fin 4) = 0)
    ∧ (win0_3.index t (0 : Fin 4) = win0_4.index t (0 : Fin 4) ∧ win0_3.index t (1 : Fin 4) = win0_4.index t (1 : Fin 4)
      ∧ win0_3.index t (2 : Fin 4) = 0 ∧ win0_3.index t (3 : Fin 4) = 0)
    ∧ (win0_4.index t (0 : Fin 4) < 8 ∧ win0_4.index t (1 : Fin 4) < 16
      ∧ win0_4.index t (2 : Fin 4) = 0 ∧ win0_4.index t (3 : Fin 4) = 0) :=
  (by decide +kernel : ∀ t : Fin grid0.N, _)

/-- Every head is some point's. -/
theorem idx_onto : ∀ (b : Fin 8) (g : Fin 16), ∃ t : Fin cfg0.N, win0_4.index t = ![b.val, g.val, 0, 0] :=
  (by decide +kernel : ∀ (b : Fin 8) (g : Fin 16), ∃ t : Fin grid0.N, win0_4.index t = ![b.val, g.val, 0, 0])

/-- The q window's block at a point of head (b, g), at (0, 0, p, r): the array at (b, g, p, r). -/
theorem blk0_entry (c : Dev nD) (t : Fin cfg0.N) (b : Fin 8) (g : Fin 16) (h0 : win0_0.index t (0 : Fin 4) = b.val)
    (h1 : win0_0.index t (1 : Fin 4) = g.val) (h2 : win0_0.index t (2 : Fin 4) = 0) (h3 : win0_0.index t (3 : Fin 4) = 0)
    (p : Fin 2048) (r : Fin 128) :
    (iblk m c 0 t : Vec Ideal S1x1x2048x128 .f32) (ix4 (0 : Fin 1) (0 : Fin 1) p r) = V m c main_arg0 (ix4 b g p r) := by
  show V m c main_arg0 (((cfg0.win 0).blk t).view.emb (ix4 (0 : Fin 1) (0 : Fin 1) p r)) = V m c main_arg0 (ix4 b g p r)
  refine congrArg (V m c main_arg0) ?_
  funext a; apply Fin.ext
  match a with
  | ⟨0, _⟩ => show win0_0.index t (0 : Fin 4) * 1 + 1 * 0 = b.val; omega
  | ⟨1, _⟩ => show win0_0.index t (1 : Fin 4) * 1 + 1 * 0 = g.val; omega
  | ⟨2, _⟩ => show win0_0.index t (2 : Fin 4) * 2048 + 1 * p.val = p.val; omega
  | ⟨3, _⟩ => show win0_0.index t (3 : Fin 4) * 128 + 1 * r.val = r.val; omega

/-- The a window's block likewise. -/
theorem blk1_entry (c : Dev nD) (t : Fin cfg0.N) (b : Fin 8) (g : Fin 16) (h0 : win0_1.index t (0 : Fin 4) = b.val)
    (h1 : win0_1.index t (1 : Fin 4) = g.val) (h2 : win0_1.index t (2 : Fin 4) = 0) (h3 : win0_1.index t (3 : Fin 4) = 0)
    (p : Fin 128) (r : Fin 128) :
    (iblk m c 1 t : Vec Ideal S1x1x128x128 .f32) (ix4 (0 : Fin 1) (0 : Fin 1) p r) = V m c main_arg1 (ix4 b g p r) := by
  show V m c main_arg1 (((cfg0.win 1).blk t).view.emb (ix4 (0 : Fin 1) (0 : Fin 1) p r)) = V m c main_arg1 (ix4 b g p r)
  refine congrArg (V m c main_arg1) ?_
  funext a; apply Fin.ext
  match a with
  | ⟨0, _⟩ => show win0_1.index t (0 : Fin 4) * 1 + 1 * 0 = b.val; omega
  | ⟨1, _⟩ => show win0_1.index t (1 : Fin 4) * 1 + 1 * 0 = g.val; omega
  | ⟨2, _⟩ => show win0_1.index t (2 : Fin 4) * 128 + 1 * p.val = p.val; omega
  | ⟨3, _⟩ => show win0_1.index t (3 : Fin 4) * 128 + 1 * r.val = r.val; omega

/-- The k window's block likewise. -/
theorem blk2_entry (c : Dev nD) (t : Fin cfg0.N) (b : Fin 8) (g : Fin 16) (h0 : win0_2.index t (0 : Fin 4) = b.val)
    (h1 : win0_2.index t (1 : Fin 4) = g.val) (h2 : win0_2.index t (2 : Fin 4) = 0) (h3 : win0_2.index t (3 : Fin 4) = 0)
    (p : Fin 128) (r : Fin 2048) :
    (iblk m c 2 t : Vec Ideal S1x1x128x2048 .f32) (ix4 (0 : Fin 1) (0 : Fin 1) p r) = V m c main_arg2 (ix4 b g p r) := by
  show V m c main_arg2 (((cfg0.win 2).blk t).view.emb (ix4 (0 : Fin 1) (0 : Fin 1) p r)) = V m c main_arg2 (ix4 b g p r)
  refine congrArg (V m c main_arg2) ?_
  funext a; apply Fin.ext
  match a with
  | ⟨0, _⟩ => show win0_2.index t (0 : Fin 4) * 1 + 1 * 0 = b.val; omega
  | ⟨1, _⟩ => show win0_2.index t (1 : Fin 4) * 1 + 1 * 0 = g.val; omega
  | ⟨2, _⟩ => show win0_2.index t (2 : Fin 4) * 128 + 1 * p.val = p.val; omega
  | ⟨3, _⟩ => show win0_2.index t (3 : Fin 4) * 2048 + 1 * r.val = r.val; omega

/-- The v window's block likewise. -/
theorem blk3_entry (c : Dev nD) (t : Fin cfg0.N) (b : Fin 8) (g : Fin 16) (h0 : win0_3.index t (0 : Fin 4) = b.val)
    (h1 : win0_3.index t (1 : Fin 4) = g.val) (h2 : win0_3.index t (2 : Fin 4) = 0) (h3 : win0_3.index t (3 : Fin 4) = 0)
    (p : Fin 2048) (r : Fin 128) :
    (iblk m c 3 t : Vec Ideal S1x1x2048x128 .f32) (ix4 (0 : Fin 1) (0 : Fin 1) p r) = V m c main_arg3 (ix4 b g p r) := by
  show V m c main_arg3 (((cfg0.win 3).blk t).view.emb (ix4 (0 : Fin 1) (0 : Fin 1) p r)) = V m c main_arg3 (ix4 b g p r)
  refine congrArg (V m c main_arg3) ?_
  funext a; apply Fin.ext
  match a with
  | ⟨0, _⟩ => show win0_3.index t (0 : Fin 4) * 1 + 1 * 0 = b.val; omega
  | ⟨1, _⟩ => show win0_3.index t (1 : Fin 4) * 1 + 1 * 0 = g.val; omega
  | ⟨2, _⟩ => show win0_3.index t (2 : Fin 4) * 2048 + 1 * p.val = p.val; omega
  | ⟨3, _⟩ => show win0_3.index t (3 : Fin 4) * 128 + 1 * r.val = r.val; omega

/-- The result as a function of the arrays the region finds. -/
abbrev GV (c : Dev nD) : S8x16x2048x128.Idx → EReal :=
  G (V m c main_arg0) (V m c main_arg1) (V m c main_arg2) (V m c main_arg3)

/-- WHAT POINT `t` WRITES BACK is block `t` of `G` of the argument arrays. -/
theorem flushed_eq (c : Dev nD) (t : Fin cfg0.N) :
    (dats m 0 c).flushed 4 t = ((cfg0.win 4).blk t).view.read (Elt Ideal) (GV m c) := by
  rw [Value.flushed4]
  obtain ⟨⟨e00, e01, e02, e03⟩, ⟨e10, e11, e12, e13⟩, ⟨e20, e21, e22, e23⟩, ⟨e30, e31, e32, e33⟩, ⟨hb, hg, e42, e43⟩⟩ :=
    idx_facts t
  funext j
  show out0_4 (iblk m c 0 t) (iblk m c 1 t) (iblk m c 2 t) (iblk m c 3 t) j
    = GV m c (((cfg0.win 4).blk t).view.emb j)
  obtain ⟨u, u', n, c', rfl⟩ : ∃ (u u' : Fin 1) (n : Fin 2048) (c' : Fin 128), j = ix4 u u' n c' :=
    ⟨j 0, j 1, j 2, j 3, eq_ix4 j⟩
  obtain rfl : u = 0 := Subsingleton.elim _ _
  obtain rfl : u' = 0 := Subsingleton.elim _ _
  have hemb : ((cfg0.win 4).blk t).view.emb (ix4 (0 : Fin 1) (0 : Fin 1) n c')
      = ix4 (⟨win0_4.index t (0 : Fin 4), hb⟩ : Fin 8) (⟨win0_4.index t (1 : Fin 4), hg⟩ : Fin 16) n c' := by
    funext a; apply Fin.ext
    match a with
    | ⟨0, _⟩ => show win0_4.index t (0 : Fin 4) * 1 + 1 * 0 = win0_4.index t (0 : Fin 4); omega
    | ⟨1, _⟩ => show win0_4.index t (1 : Fin 4) * 1 + 1 * 0 = win0_4.index t (1 : Fin 4); omega
    | ⟨2, _⟩ => show win0_4.index t (2 : Fin 4) * 2048 + 1 * n.val = n.val; omega
    | ⟨3, _⟩ => show win0_4.index t (3 : Fin 4) * 128 + 1 * c'.val = c'.val; omega
  rw [hemb]
  show _ = Gat (V m c main_arg0) (V m c main_arg1) (V m c main_arg2) (V m c main_arg3) _ _ n c'
  refine (Cert.KernelIdeal.Entry.out_entry _ _ _ _ n c').trans ?_
  unfold Gat
  rw [show head (B := 1) (H := 1) (a := 2048) (b := 128) (iblk m c 0 t) 0 0 = head (V m c main_arg0) _ _ from
      funext fun p => funext fun r => blk0_entry m c t ⟨_, hb⟩ ⟨_, hg⟩ e00 e01 e02 e03 p r,
    show head (B := 1) (H := 1) (a := 128) (b := 128) (iblk m c 1 t) 0 0 = head (V m c main_arg1) _ _ from
      funext fun p => funext fun r => blk1_entry m c t ⟨_, hb⟩ ⟨_, hg⟩ e10 e11 e12 e13 p r,
    show head (B := 1) (H := 1) (a := 128) (b := 2048) (iblk m c 2 t) 0 0 = head (V m c main_arg2) _ _ from
      funext fun p => funext fun r => blk2_entry m c t ⟨_, hb⟩ ⟨_, hg⟩ e20 e21 e22 e23 p r,
    show head (B := 1) (H := 1) (a := 2048) (b := 128) (iblk m c 3 t) 0 0 = head (V m c main_arg3) _ _ from
      funext fun p => funext fun r => blk3_entry m c t ⟨_, hb⟩ ⟨_, hg⟩ e30 e31 e32 e33 p r]

/-- An index of the result array is in point `t`'s block iff each coordinate is in the block's range on its axis. -/
theorem mem_blk (t : Fin cfg0.N) (i : S8x16x2048x128.Idx) :
    i ∈ ((cfg0.win 4).blk t).view.set ↔ ∀ a : Fin 4, win0_4.index t a * S1x1x2048x128.size a ≤ (i a).val
      ∧ (i a).val < win0_4.index t a * S1x1x2048x128.size a + S1x1x2048x128.size a := by
  show i ∈ ((View.whole main_v0).slice (win0_4.rect t)).set ↔ _
  rw [View.set_slice_whole, Rect.mem_set_unit]
  exact Iff.rfl

/-- The 128 blocks fill the result array: index (b, g, ·, ·) is in the block of head (b, g)'s point. -/
theorem cover (i : S8x16x2048x128.Idx) :
    ∃ t : Fin cfg0.N, (cfg0.win 4).flush t = true ∧ i ∈ ((cfg0.win 4).blk t).view.set := by
  have hi0 : (i 0).val < 8 := (i 0).isLt
  have hi1 : (i 1).val < 16 := (i 1).isLt
  have hi2 : (i 2).val < 2048 := (i 2).isLt
  have hi3 : (i 3).val < 128 := (i 3).isLt
  obtain ⟨t, ht⟩ := idx_onto ⟨(i 0).val, hi0⟩ ⟨(i 1).val, hi1⟩
  have q0 : win0_4.index t (0 : Fin 4) = (i 0).val := congrFun ht 0
  have q1 : win0_4.index t (1 : Fin 4) = (i 1).val := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 2048 ≤ (i 2).val ∧ (i 2).val < win0_4.index t (2 : Fin 4) * 2048 + 2048; omega
  | ⟨3, _⟩ => show win0_4.index t (3 : Fin 4) * 128 ≤ (i 3).val ∧ (i 3).val < win0_4.index t (3 : Fin 4) * 128 + 128; omega

/-- THE ARRAY after the run: `G` of the argument arrays. -/
theorem final (c : Dev nD) : (dats m 0 c).arrAt 4 cfg0.N = GV m c :=
  (dats m 0 c).arrAt_eq_of_cover 4 (GV m c) (fun t _ => flushed_eq m c t) (cover)

/-- The run, read: the result array at `G` of the argument arrays as launched, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefEntry.lean ====
/-
  The reference's result, entry by entry.

  The reference computes, over the whole arrays [8, 16, ·, ·] and head by head (two batch axes), the same two chained
  softmax-of-product stages: the product q·a contracted over the last axis of q, its row maximum over the last axis (a
  reduction from minus infinity, then once more the maximum with minus infinity), the exponentials of the differences,
  their row sums (from zero) and the quotient; the same for a·k; then the product of the second stage with v and of the
  first stage with that product.  Read at entry (b, g, ·, ·) each stage is the stage of the four matrices the arrays hold
  at head (b, g), so the result is `G` of the argument arrays.
-/
import proofs.«111125_j2130303779059_1_alg».proof.Proof.Gen.ReferenceIdeal.Read
import Idealize.ShloMosaic.Lib.ValueIdx
import Idealize.ShloMosaic.PureOps.Ideal.Laws
import proofs.«111125_j2130303779059_1_alg».proof.Proof.LibSoftmaxRows
import proofs.«111125_j2130303779059_1_alg».proof.Proof.Attention

noncomputable section

namespace Cert.ReferenceIdeal.Entry

open Cert.ReferenceIdeal Cert.ReferenceIdeal.Gen Cert.ReferenceIdeal.Read Idealize.ShloMosaic Idealize.ShloMosaic.TcCoe
open Idealize.SL.Sem Idealize.ShloMosaic.ValueIdx Cert.Lib.RowSoftmax Cert.Lib.SoftmaxRows Cert.Attention

variable (q : (⟨S8x16x2048x128, .f32⟩ : BufTy).Contents (Elt Ideal)) (a : (⟨S8x16x128x128, .f32⟩ : BufTy).Contents (Elt Ideal))
  (k : (⟨S8x16x128x2048, .f32⟩ : BufTy).Contents (Elt Ideal)) (v : (⟨S8x16x2048x128, .f32⟩ : BufTy).Contents (Elt Ideal))

/-! ## The first stage: softmax(q·a) -/

/-- q·a at (b, g, n, e). -/
theorem v0_entry (b : Fin 8) (g : Fin 16) (n : Fin 2048) (e : Fin 128) :
    val_main_v0 (F := Ideal) q a (ix4 b g n e) = mm (head q b g) (head a b g) n e := by
  refine (val_main_v0_apply q a (ix4 b g n e)).trans ?_
  refine Finset.sum_congr rfl fun r _ => congrArg₂ (· * ·) (congrArg q ?_) (congrArg a ?_)
  · exact funext fun c => Fin.ext (by match c with | ⟨0, _⟩ => rfl | ⟨1, _⟩ => rfl | ⟨2, _⟩ => rfl | ⟨3, _⟩ => rfl)
  · exact funext fun c => Fin.ext (by match c with | ⟨0, _⟩ => rfl | ⟨1, _⟩ => rfl | ⟨2, _⟩ => rfl | ⟨3, _⟩ => rfl)

/-- The row maximum of q·a, taken twice from minus infinity, at (b, g, n). -/
theorem v3_entry (b : Fin 8) (g : Fin 16) (n : Fin 2048) :
    val_main_v3 (F := Ideal) q a (ix3 b g n) = rowMax (mm (head q b g) (head a b g)) n := by
  have h1 : val_main_v1 (F := Ideal) q a (ix3 b g n) = rowMax (mm (head q b g) (head a b g)) n := by
    have h0 : ∀ r : Fin 128, val_main_v0 (F := Ideal) q a (ix4 b g n r) = mm (head q b g) (head a b g) n r :=
      fun r => v0_entry q a b g n r
    unfold val_main_v1
    generalize val_main_v0 (F := Ideal) q a = y at h0 ⊢
    refine (hostReduce_max_last y (val_main_cst (F := Ideal))
      reducesTo_S8x16x2048x128_S8x16x2048_d3 (by decide) h_S_ b g n).trans ?_
    unfold rowMax
    exact Finset.fold_congr fun r _ => h0 r
  rw [val_main_v3_apply, h1, val_main_v2_apply, val_main_cst_0_apply]
  exact max_bot_rowMax _ n

/-- The exponentials of q·a minus its row maxima, at (b, g, n, e). -/
theorem v7_entry (b : Fin 8) (g : Fin 16) (n : Fin 2048) (e : Fin 128) :
    val_main_v7 (F := Ideal) q a (ix4 b g n e) = expRow (mm (head q b g) (head a b g)) n e := by
  rw [val_main_v7_apply, val_main_v6_apply, val_main_v5_apply, val_main_v4_apply, v0_entry,
    show idx_main_v4 (idx_main_v5 (ix4 b g n e)) = ix3 b g n from funext fun c => Fin.ext (by match c with | ⟨0, _⟩ => rfl | ⟨1, _⟩ => rfl | ⟨2, _⟩ => rfl), v3_entry]
  rfl

/-- Their row sums, at (b, g, n). -/
theorem v8_entry (b : Fin 8) (g : Fin 16) (n : Fin 2048) :
    val_main_v8 (F := Ideal) q a (ix3 b g n) = ∑ e : Fin 128, expRow (mm (head q b g) (head a b g)) n e := by
  have hs : ∀ e : Fin 128, val_main_v7 (F := Ideal) q a (idx_main_v8 (ix3 b g n) e)
      = expRow (mm (head q b g) (head a b g)) n e := fun e => by
    rw [show idx_main_v8 (ix3 b g n) e = ix4 b g n e from funext fun c => Fin.ext (by match c with | ⟨0, _⟩ => rfl | ⟨1, _⟩ => rfl | ⟨2, _⟩ => rfl | ⟨3, _⟩ => rfl)]
    exact v7_entry q a b g n e
  refine (val_main_v8_apply q a (ix3 b g n)).trans ?_
  rw [val_main_cst_1_apply, Finset.sum_congr rfl fun e _ => hs e]
  show Ideal.ofBits .f32 0x00000000#32 + _ = _
  rw [Ideal.ofBits_zero_f32, zero_add]

/-- softmax(q·a) at (b, g, n, e). -/
theorem v11_entry (b : Fin 8) (g : Fin 16) (n : Fin 2048) (e : Fin 128) :
    val_main_v11 (F := Ideal) q a (ix4 b g n e) = softmax (mm (head q b g) (head a b g)) n e := by
  rw [val_main_v11_apply, val_main_v10_apply, val_main_v9_apply,
    show idx_main_v9 (idx_main_v10 (ix4 b g n e)) = ix3 b g n from funext fun c => Fin.ext (by match c with | ⟨0, _⟩ => rfl | ⟨1, _⟩ => rfl | ⟨2, _⟩ => rfl), v8_entry, v7_entry]
  rfl

/-! ## The second stage: softmax(a·k) -/

/-- a·k at (b, g, d, r). -/
theorem v12_entry (b : Fin 8) (g : Fin 16) (d : Fin 128) (r : Fin 2048) :
    val_main_v12 (F := Ideal) a k (ix4 b g d r) = mm (head a b g) (head k b g) d r := by
  refine (val_main_v12_apply a k (ix4 b g d r)).trans ?_
  refine Finset.sum_congr rfl fun e _ => congrArg₂ (· * ·) (congrArg a ?_) (congrArg k ?_)
  · exact funext fun c => Fin.ext (by match c with | ⟨0, _⟩ => rfl | ⟨1, _⟩ => rfl | ⟨2, _⟩ => rfl | ⟨3, _⟩ => rfl)
  · exact funext fun c => Fin.ext (by match c with | ⟨0, _⟩ => rfl | ⟨1, _⟩ => rfl | ⟨2, _⟩ => rfl | ⟨3, _⟩ => rfl)

/-- The row maximum of a·k, taken twice from minus infinity, at (b, g, d). -/
theorem v15_entry (b : Fin 8) (g : Fin 16) (d : Fin 128) :
    val_main_v15 (F := Ideal) a k (ix3 b g d) = rowMax (mm (head a b g) (head k b g)) d := by
  have h1 : val_main_v13 (F := Ideal) a k (ix3 b g d) = rowMax (mm (head a b g) (head k b g)) d := by
    have h0 : ∀ r : Fin 2048, val_main_v12 (F := Ideal) a k (ix4 b g d r) = mm (head a b g) (head k b g) d r :=
      fun r => v12_entry a k b g d r
    unfold val_main_v13
    generalize val_main_v12 (F := Ideal) a k = y at h0 ⊢
    refine (hostReduce_max_last y (val_main_cst_2 (F := Ideal))
      reducesTo_S8x16x128x2048_S8x16x128_d3 (by decide) h_S_ b g d).trans ?_
    unfold rowMax
    exact Finset.fold_congr fun r _ => h0 r
  rw [val_main_v15_apply, h1, val_main_v14_apply, val_main_cst_3_apply]
  exact max_bot_rowMax _ d

/-- The exponentials of a·k minus its row maxima, at (b, g, d, r). -/
theorem v19_entry (b : Fin 8) (g : Fin 16) (d : Fin 128) (r : Fin 2048) :
    val_main_v19 (F := Ideal) a k (ix4 b g d r) = expRow (mm (head a b g) (head k b g)) d r := by
  rw [val_main_v19_apply, val_main_v18_apply, val_main_v17_apply, val_main_v16_apply, v12_entry,
    show idx_main_v16 (idx_main_v17 (ix4 b g d r)) = ix3 b g d from funext fun c => Fin.ext (by match c with | ⟨0, _⟩ => rfl | ⟨1, _⟩ => rfl | ⟨2, _⟩ => rfl), v15_entry]
  rfl

/-- Their row sums, at (b, g, d). -/
theorem v20_entry (b : Fin 8) (g : Fin 16) (d : Fin 128) :
    val_main_v20 (F := Ideal) a k (ix3 b g d) = ∑ r : Fin 2048, expRow (mm (head a b g) (head k b g)) d r := by
  have hs : ∀ r : Fin 2048, val_main_v19 (F := Ideal) a k (idx_main_v20 (ix3 b g d) r)
      = expRow (mm (head a b g) (head k b g)) d r := fun r => by
    rw [show idx_main_v20 (ix3 b g d) r = ix4 b g d r from funext fun c => Fin.ext (by match c with | ⟨0, _⟩ => rfl | ⟨1, _⟩ => rfl | ⟨2, _⟩ => rfl | ⟨3, _⟩ => rfl)]
    exact v19_entry a k b g d r
  refine (val_main_v20_apply a k (ix3 b g d)).trans ?_
  rw [val_main_cst_4_apply, Finset.sum_congr rfl fun r _ => hs r]
  show Ideal.ofBits .f32 0x00000000#32 + _ = _
  rw [Ideal.ofBits_zero_f32, zero_add]

/-- softmax(a·k) at (b, g, d, r). -/
theorem v23_entry (b : Fin 8) (g : Fin 16) (d : Fin 128) (r : Fin 2048) :
    val_main_v23 (F := Ideal) a k (ix4 b g d r) = softmax (mm (head a b g) (head k b g)) d r := by
  rw [val_main_v23_apply, val_main_v22_apply, val_main_v21_apply,
    show idx_main_v21 (idx_main_v22 (ix4 b g d r)) = ix3 b g d from funext fun c => Fin.ext (by match c with | ⟨0, _⟩ => rfl | ⟨1, _⟩ => rfl | ⟨2, _⟩ => rfl), v20_entry, v19_entry]
  rfl

/-! ## The two products -/

/-- softmax(a·k)·v at (b, g, d, c). -/
theorem v24_entry (b : Fin 8) (g : Fin 16) (d : Fin 128) (c : Fin 128) :
    val_main_v24 (F := Ideal) a k v (ix4 b g d c)
      = mm (softmax (mm (head a b g) (head k b g))) (head v b g) d c := by
  refine (val_main_v24_apply a k v (ix4 b g d c)).trans ?_
  refine Finset.sum_congr rfl fun r _ => congrArg₂ (· * ·) ?_ (congrArg v ?_)
  · rw [show lidx_main_v24 (ix4 b g d c) r = ix4 b g d r from funext fun c => Fin.ext (by match c with | ⟨0, _⟩ => rfl | ⟨1, _⟩ => rfl | ⟨2, _⟩ => rfl | ⟨3, _⟩ => rfl)]
    exact v23_entry a k b g d r
  · exact funext fun c => Fin.ext (by match c with | ⟨0, _⟩ => rfl | ⟨1, _⟩ => rfl | ⟨2, _⟩ => rfl | ⟨3, _⟩ => rfl)

/-- The result at (b, g, n, c). -/
theorem v25_entry (b : Fin 8) (g : Fin 16) (n : Fin 2048) (c : Fin 128) :
    val_main_v25 (F := Ideal) q a k v (ix4 b g n c) = Gat q a k v b g n c := by
  refine (val_main_v25_apply q a k v (ix4 b g n c)).trans ?_
  unfold Gat attn
  refine Finset.sum_congr rfl fun e _ => congrArg₂ (· * ·) ?_ ?_
  · rw [show lidx_main_v25 (ix4 b g n c) e = ix4 b g n e from funext fun c => Fin.ext (by match c with | ⟨0, _⟩ => rfl | ⟨1, _⟩ => rfl | ⟨2, _⟩ => rfl | ⟨3, _⟩ => rfl)]
    exact v11_entry q a b g n e
  · rw [show ridx_main_v25 (ix4 b g n c) e = ix4 b g e c from funext fun c => Fin.ext (by match c with | ⟨0, _⟩ => rfl | ⟨1, _⟩ => rfl | ⟨2, _⟩ => rfl | ⟨3, _⟩ => rfl)]
    exact v24_entry a k v b g e c

/-- THE REFERENCE'S RESULT is `G` of the argument arrays. -/
theorem result_eq : val_main_v25 (F := Ideal) q a k v = G q a k v := by
  funext i
  obtain ⟨b, g, n, c, rfl⟩ : ∃ (b : Fin 8) (g : Fin 16) (n : Fin 2048) (c : Fin 128), i = ix4 b g n c :=
    ⟨i 0, i 1, i 2, i 3, eq_ix4 i⟩
  exact v25_entry q a k v b g n c

end Cert.ReferenceIdeal.Entry

end
-- ==== Proof.lean ====
/-
  The kernel and its reference compute, head by head over arrays [8, 16, ·, ·], the same two chained
  softmax-of-product stages:  out = softmax(q·a) · (softmax(a·k) · v), each softmax taken along the rows with the row
  maximum subtracted first.  The kernel does one head per grid point on [1, 1, ·, ·] blocks, narrowing every factor to
  bf16 before each product; the reference works on the whole arrays with two batch axes.  At exact arithmetic a narrowing
  is the identity, a product into a zero accumulator and the host's dot_general are the same sums, a lane maximum and the
  host's maximum-reduction are the same running maximum from minus infinity, and a lane sum and the host's sum from zero
  are the same sum.  So both results are ONE function `G` of the four argument arrays (Attention.lean), entry by entry:
  the kernel's by KernelEntry.lean (one block) and KernelArray.lean (the 128 blocks fill the array), the reference's by
  RefEntry.lean.  No algebraic law beyond these readings is used, so the precondition is not opened.  The three frames are
  the generated ones (the reference's is its generated run with the result dropped), and the idealization rewrote nothing.
-/
import proofs.«111125_j2130303779059_1_alg».proof.Defs
import proofs.«111125_j2130303779059_1_alg».proof.Proof.Gen.Kernel
import proofs.«111125_j2130303779059_1_alg».proof.Proof.Gen.Kernel.Skeleton
import proofs.«111125_j2130303779059_1_alg».proof.Proof.Gen.Kernel.Launch
import proofs.«111125_j2130303779059_1_alg».proof.Proof.Gen.Kernel.Points
import proofs.«111125_j2130303779059_1_alg».proof.Proof.Gen.Kernel.Frame
import proofs.«111125_j2130303779059_1_alg».proof.Proof.Gen.KernelIdeal
import proofs.«111125_j2130303779059_1_alg».proof.Proof.Gen.KernelIdeal.Skeleton
import proofs.«111125_j2130303779059_1_alg».proof.Proof.Gen.KernelIdeal.Launch
import proofs.«111125_j2130303779059_1_alg».proof.Proof.Gen.KernelIdeal.Points
import proofs.«111125_j2130303779059_1_alg».proof.Proof.Gen.KernelIdeal.Frame
import proofs.«111125_j2130303779059_1_alg».proof.Proof.Gen.ReferenceIdeal
import proofs.«111125_j2130303779059_1_alg».proof.Proof.Gen.Pre_finite_inputs
import proofs.«111125_j2130303779059_1_alg».proof.Proof.Gen.KernelIdeal.Value
import proofs.«111125_j2130303779059_1_alg».proof.Proof.Gen.ReferenceIdeal.Run
import proofs.«111125_j2130303779059_1_alg».proof.Proof.Gen.ReferenceIdeal.Read
import proofs.«111125_j2130303779059_1_alg».proof.Proof.KernelArray
import proofs.«111125_j2130303779059_1_alg».proof.Proof.RefEntry
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At exact arithmetic the kernel's result array and the reference's are both `G` of arguments that agree. -/
theorem algebraic : Cert.algebraic_KernelIdeal_ReferenceIdeal := by
  intro m ρ m' ρ' _ hagree
  refine ⟨fun c => Cert.Attention.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.Entry.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
